-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 53
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S_, .i32⟩
  | .hbm, ⟨10, _⟩ => ⟨S100000, .i32⟩
  | .hbm, ⟨11, _⟩ => ⟨S1600000x1, .i32⟩
  | .hbm, ⟨12, _⟩ => ⟨S100000, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S128x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S128x128, .f32⟩
  | .hbm, ⟨51, _⟩ => ⟨S1x128, .f32⟩
  | .hbm, ⟨52, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x1, .f32⟩
  | .local _ .vmem, ⟨15, _⟩ => ⟨S10000x1, .f32⟩
  | .local _ .vmem, ⟨16, _⟩ => ⟨S128x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result named.

  The program is four stretches in a row: host operations, the first tiled layer, host operations, the second tiled
  layer.  Each stretch takes the buffers' contents at its entry to definite contents at its exit, and the last of these
  boundary contents is what every buffer holds when the program returns.  So every weakly fair execution terminates
  with the result buffer at the last boundary's contents of it, and with the seven arguments as they were launched.
-/
import proofs.«132182_j75127567942136_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    unchanged: the program's segments chained from the launch, the last thread state read against the final memory. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«132182_j75127567942136_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«132182_j75127567942136_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«132182_j75127567942136_2_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibRowScalar.lean ====
/-
  Three small facts at the ideal instance, for any extents.

  * A vector of length a made a column (a × 1) and then repeated along the rows of an a × b array reads, at (r, k), the
    vector's entry r — the way a per-row scalar (a degree, a norm) is spread over a row on the host.
  * The 32-bit word 0x3F800000 is the number one.
  * The logistic function of a vector, read at an index, is the logistic function of the entry, which on the extended
    reals is 1 / (1 + exp (−x)) by definition.
-/
import Idealize.ShloMosaic.Lib.ValueIdx
import Idealize.ShloMosaic.Lib.Pipeline.Value
import Idealize.ShloMosaic.PureOps.Ideal.Laws

noncomputable section

namespace Cert.LibRowScalar

open Idealize.ShloMosaic Idealize.ShloMosaic.ValueIdx

/-- The word of the number one. -/
theorem one_word : Ideal.ofBits .f32 0x3F800000#32 = 1 := by
  simp [Ideal.ofBits, Ideal.ieee, -EReal.coe_mul]; norm_num

/-- A vector made a column and then repeated along the rows reads, at (r, k), its entry r. -/
theorem col_apply {a b : Nat} {α : Type} (v : (⟨1, ![a]⟩ : Shape).Idx → α)
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) g2 (broadcastInDim ⟨2, ![a, 1]⟩ (![0] : Fin 1 → Fin 2) g1 v) (ix2 r k)
      = v (ix1 r) := by
  rw [broadcastInDim_apply (![0, 1] : Fin 2 → Fin 2) g2 _ (ix2 r k) (ix2 r (0 : Fin 1)) (fun ax => by
    match ax with
    | ⟨0, _⟩ =>
      show r.val = if a = 1 then 0 else r.val
      split
      · have := r.isLt; omega
      · rfl
    | ⟨1, _⟩ => rfl)]
  exact broadcastInDim_apply (![0] : Fin 1 → Fin 2) g1 v (ix2 r (0 : Fin 1)) (ix1 r) (fun ax => by
    match ax with
    | ⟨0, _⟩ =>
      show r.val = if a = 1 then 0 else r.val
      split
      · have := r.isLt; omega
      · rfl)

/-- The logistic function of a vector, read at an index. -/
theorem logistic_apply {s : Shape} {φ : FTy} (x : FVec Ideal s φ) (i : s.Idx) : logistic x i = Ideal.logistic (x i) := rfl

/-- The logistic function on the extended reals is 1 / (1 + exp (−x)). -/
theorem logistic_eq (x : EReal) : Ideal.logistic x = Ideal.div 1 (1 + Ideal.exp (-x)) := rfl

end Cert.LibRowScalar

end
-- ==== Proof.LibMeanLayer.lean ====
/-
  One layer of a graph network with mean aggregation, entry by entry on the extended reals, and the two ways a
  program spells it.

  The layer sends a feature array x (M rows, K columns), an array s of summed neighbour messages of the same shape, a
  divisor δ per row, a K×N matrix w and a bias vector b to the array whose entry at row r and column j is

      act ( Σ_k (x(r,k) + s(r,k) / δ(r)) · w(k,j) + b(j) ).

  A tiled program instead multiplies by a column ι of reciprocals and adds the bias as a one-row matrix:
  Σ_k (x(r,k) + s(r,k) · ι(r,0)) · w(k,j) + b(0,j)  (`tile`).  When ι is the column of 1/δ and δ(r) is the larger of a
  real number and one, the two agree on every extended real s(r,k): the divisor is a nonzero real, so dividing by it IS
  multiplying by its reciprocal — no finiteness of x or s is needed.  The host program divides the summed messages by
  the divisor spread along the rows and adds the bias spread along the columns; that is the layer by definition of the
  host operations at an entry.
-/
import proofs.«132182_j75127567942136_2_alg».proof.Proof.LibAffineBlock
import proofs.«132182_j75127567942136_2_alg».proof.Proof.LibHostAffine
import proofs.«132182_j75127567942136_2_alg».proof.Proof.LibColumnForms
import proofs.«132182_j75127567942136_2_alg».proof.Proof.LibRowScalar

noncomputable section

open scoped BigOperators

namespace Cert.GinLayer

open Idealize.ShloMosaic Idealize.ShloMosaic.ValueIdx

variable {M K N : Nat}

/-- The layer, entry by entry: the affine image of x + s/δ under w and b, then the activation. -/
def layer (act : EReal → EReal) (x s : FVec Ideal ⟨2, ![M, K]⟩ .f32) (δ : FVec Ideal ⟨1, ![M]⟩ .f32)
    (w : FVec Ideal ⟨2, ![K, N]⟩ .f32) (b : FVec Ideal ⟨1, ![N]⟩ .f32) : FVec Ideal ⟨2, ![M, N]⟩ .f32 :=
  fun i => act ((∑ k : Fin K, (x (ix2 (i 0) k) + Ideal.div (s (ix2 (i 0) k)) (δ (ix1 (i 0)))) * w (ix2 k (i 1)))
    + b (ix1 (i 1)))

/-- The tiled spelling: the messages scaled by a column ι, the bias a one-row matrix. -/
def tile (act : EReal → EReal) (x s : FVec Ideal ⟨2, ![M, K]⟩ .f32) (ι : FVec Ideal ⟨2, ![M, 1]⟩ .f32)
    (w : FVec Ideal ⟨2, ![K, N]⟩ .f32) (b : FVec Ideal ⟨2, ![1, N]⟩ .f32) : FVec Ideal ⟨2, ![M, N]⟩ .f32 :=
  fun i => act ((∑ k : Fin K, (x (ix2 (i 0) k) + s (ix2 (i 0) k) * ι (ix2 (i 0) (0 : Fin 1))) * w (ix2 k (i 1)))
    + b (ix2 (0 : Fin 1) (i 1)))

/-- The positive part. -/
def pos (v : EReal) : EReal := max v 0

/-- Dividing by the larger of a real number and one is multiplying by its reciprocal, for every extended real. -/
theorem mul_inv_eq_div (v : EReal) (c : ℝ) :
    v * Ideal.div 1 (max (c : EReal) 1) = Ideal.div v (max (c : EReal) 1) := by
  have h : max (c : EReal) 1 = ((max c 1 : ℝ) : EReal) := by
    rw [← EReal.coe_one]; exact (EReal.coe_strictMono.monotone.map_max).symm
  have hne : (max c 1 : ℝ) ≠ 0 := ne_of_gt (lt_of_lt_of_le one_pos (le_max_right c 1))
  rw [h, Ideal.div_coe hne, Ideal.div_coe hne, one_mul]

/-- A vector operation of the body, `x + s · (ι spread along the rows)`, multiplied into w from the zero accumulator, plus
    the one-row bias spread over the rows: the tiled spelling with no activation. -/
theorem body_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x s : FVec Ideal ⟨2, ![M, K]⟩ .f32) (ι : FVec Ideal ⟨2, ![M, 1]⟩ .f32)
    (w : FVec Ideal ⟨2, ![K, N]⟩ .f32) (b : FVec Ideal ⟨2, ![1, N]⟩ .f32)
    (hι : (⟨2, ![M, 1]⟩ : Shape).Broadcasts ⟨2, ![M, K]⟩) (hb : (⟨2, ![1, N]⟩ : Shape).Broadcasts ⟨2, ![M, N]⟩) :
    addf (matmul d prec (addf x (mulf s (broadcastTo ⟨2, ![M, K]⟩ ι hι))) w
        (constant (F := Ideal) ⟨2, ![M, N]⟩ .f32 0x00000000#32)) (broadcastTo ⟨2, ![M, N]⟩ b hb)
      = tile id x s ι w b := by
  funext i
  obtain ⟨r, j, rfl⟩ : ∃ (r : Fin M) (j : Fin N), i = ix2 r j := ⟨i 0, i 1, eq_ix2 i⟩
  rw [Cert.LibAffineBlock.affine_apply d hlc hrc hln hrn hlb hrb prec _ w b hb r j]
  show _ = (∑ k : Fin K, (x (ix2 r k) + s (ix2 r k) * ι (ix2 r (0 : Fin 1))) * w (ix2 k j)) + b (ix2 (0 : Fin 1) j)
  refine congrArg (· + b (ix2 (0 : Fin 1) j)) (Finset.sum_congr rfl fun k _ => ?_)
  rw [addf_apply, mulf_apply, Cert.Lib.ColumnForms.broadcastTo_a1_ab_apply ι hι r k]

/-- The same followed by the maximum with a splat of the zero word: the tiled spelling with the positive part. -/
theorem body_pos_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x s : FVec Ideal ⟨2, ![M, K]⟩ .f32) (ι : FVec Ideal ⟨2, ![M, 1]⟩ .f32)
    (w : FVec Ideal ⟨2, ![K, N]⟩ .f32) (b : FVec Ideal ⟨2, ![1, N]⟩ .f32)
    (hι : (⟨2, ![M, 1]⟩ : Shape).Broadcasts ⟨2, ![M, K]⟩) (hb : (⟨2, ![1, N]⟩ : Shape).Broadcasts ⟨2, ![M, N]⟩) :
    maximumf (addf (matmul d prec (addf x (mulf s (broadcastTo ⟨2, ![M, K]⟩ ι hι))) w
        (constant (F := Ideal) ⟨2, ![M, N]⟩ .f32 0x00000000#32)) (broadcastTo ⟨2, ![M, N]⟩ b hb))
        (broadcast ⟨2, ![M, N]⟩ (Scalar.ofBits (F := Ideal) .f32 0x00000000#32))
      = tile pos x s ι w b := by
  rw [body_eq d hlc hrc hln hrn hlb hrb prec x s ι w b hι hb]
  funext i
  show max (tile id x s ι w b i) (Ideal.ofBits .f32 0x00000000#32) = max (tile id x s ι w b i) 0
  rw [Ideal.ofBits_zero_f32]

/-- The tiled spelling is the layer when the column is the reciprocal of the divisor, cast from a vector, the divisor
    is everywhere the larger of a real number and one, and the one-row bias is the bias vector given a unit axis. -/
theorem tile_eq_layer (act : EReal → EReal) (x s : FVec Ideal ⟨2, ![M, K]⟩ .f32)
    (one δ : FVec Ideal ⟨1, ![M]⟩ .f32) (w : FVec Ideal ⟨2, ![K, N]⟩ .f32) (b : FVec Ideal ⟨1, ![N]⟩ .f32)
    (hone : ∀ r, one r = 1) (hδ : ∀ r, ∃ c : ℝ, δ r = max (c : EReal) 1)
    (h1 : (⟨1, ![M]⟩ : Shape).ShapeCasts ⟨2, ![M, 1]⟩) (h2 : (⟨1, ![N]⟩ : Shape).ShapeCasts ⟨2, ![1, N]⟩) :
    tile act x s (shapeCast ⟨2, ![M, 1]⟩ (Host.divf one δ) h1) w (shapeCast ⟨2, ![1, N]⟩ b h2)
      = layer act x s δ w b := by
  funext i
  have hb : shapeCast ⟨2, ![1, N]⟩ b h2 (ix2 (0 : Fin 1) (i 1)) = b (ix1 (i 1)) :=
    shapeCast_apply b h2 (ix2 (0 : Fin 1) (i 1)) (ix1 (i 1)) (by
      rw [Shape.rowMajor_val_one, Shape.rowMajor_val_two]
      show (i 1).val = 0 * N + (i 1).val
      omega)
  have hι : shapeCast ⟨2, ![M, 1]⟩ (Host.divf one δ) h1 (ix2 (i 0) (0 : Fin 1))
      = Ideal.div 1 (δ (ix1 (i 0))) := by
    rw [Cert.Lib.ColumnForms.shapeCast_a_a1_apply _ h1 (i 0) (0 : Fin 1)]
    show Ideal.div (one (ix1 (i 0))) (δ (ix1 (i 0))) = _
    rw [hone]
  show act _ = act _
  rw [hb, hι]
  obtain ⟨c, hc⟩ := hδ (ix1 (i 0))
  refine congrArg act (congrArg (· + b (ix1 (i 1))) (Finset.sum_congr rfl fun k _ => ?_))
  rw [hc, mul_inv_eq_div]

/-- The host spelling — the summed messages divided by the divisor made a column and spread along the rows, added to x,
    multiplied into w, plus the bias vector made a row and spread over the rows — is the layer with no activation. -/
theorem host_eq_layer (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x s : FVec Ideal ⟨2, ![M, K]⟩ .f32) (δ : FVec Ideal ⟨1, ![M]⟩ .f32)
    (w : FVec Ideal ⟨2, ![K, N]⟩ .f32) (b : FVec Ideal ⟨1, ![N]⟩ .f32)
    (g1 : (⟨1, ![M]⟩ : Shape).BroadcastsInDim ⟨2, ![M, 1]⟩ (![0] : Fin 1 → Fin 2))
    (g2 : (⟨2, ![M, 1]⟩ : Shape).BroadcastsInDim ⟨2, ![M, K]⟩ (![0, 1] : Fin 2 → Fin 2))
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral d prec (addf x (Host.divf s
          (broadcastInDim ⟨2, ![M, K]⟩ (![0, 1] : Fin 2 → Fin 2) g2 (broadcastInDim ⟨2, ![M, 1]⟩ (![0] : Fin 1 → Fin 2) g1 δ)))) w)
        (broadcastInDim ⟨2, ![M, N]⟩ (![0, 1] : Fin 2 → Fin 2) h2 (broadcastInDim ⟨2, ![1, N]⟩ (![1] : Fin 1 → Fin 2) h1 b))
      = layer id x s δ w b := by
  funext i
  obtain ⟨r, j, rfl⟩ : ∃ (r : Fin M) (j : Fin N), i = ix2 r j := ⟨i 0, i 1, eq_ix2 i⟩
  rw [Cert.LibHostAffine.affine_apply d hlc hrc hln hrn hlb hrb prec _ w b h1 h2 r j]
  show _ = (∑ k : Fin K, (x (ix2 r k) + Ideal.div (s (ix2 r k)) (δ (ix1 r))) * w (ix2 k j)) + b (ix1 j)
  refine congrArg (· + b (ix1 j)) (Finset.sum_congr rfl fun k _ => ?_)
  rw [addf_apply]
  show (x (ix2 r k) + Ideal.div (s (ix2 r k)) (broadcastInDim ⟨2, ![M, K]⟩ (![0, 1] : Fin 2 → Fin 2) g2
    (broadcastInDim ⟨2, ![M, 1]⟩ (![0] : Fin 1 → Fin 2) g1 δ) (ix2 r k))) * w (ix2 k j) = _
  rw [Cert.LibRowScalar.col_apply δ g1 g2 r k]

/-- The host's maximum with the broadcast zero constant turns the layer's activation into the positive part. -/
theorem host_pos (x s : FVec Ideal ⟨2, ![M, K]⟩ .f32) (δ : FVec Ideal ⟨1, ![M]⟩ .f32)
    (w : FVec Ideal ⟨2, ![K, N]⟩ .f32) (b : FVec Ideal ⟨1, ![N]⟩ .f32)
    (h : (⟨0, ![]⟩ : Shape).BroadcastsInDim ⟨2, ![M, N]⟩ (![] : Fin 0 → Fin 2)) :
    maximumf (layer id x s δ w b)
        (broadcastInDim ⟨2, ![M, N]⟩ (![] : Fin 0 → Fin 2) h (constant (F := Ideal) ⟨0, ![]⟩ .f32 0x00000000#32))
      = layer pos x s δ w b := by
  funext i
  exact Cert.LibHostAffine.relu_apply (layer id x s δ w b) h i

end Cert.GinLayer

end
-- ==== Proof.KernelBlocks.lean ====
/-
  What each of the two tiled calls leaves in its result array, for any contents of the buffers at the call's entry.

  A call runs the layer's body once per grid point on row tiles of 10000 rows: the point's tiles of x, s and the
  reciprocal column ι, the whole weight matrix and the whole bias row.  An entry of the tiled layer at row r depends only
  on row r of x, s and ι, so the body's result on tile t is tile t of the tiled layer of the WHOLE arrays; the ten tiles
  fill the 100000 rows, so the array the call writes ends holding that whole-array function of its operands.
-/
import proofs.«132182_j75127567942136_2_alg».proof.Proof.Gen.KernelIdeal.Frame
import proofs.«132182_j75127567942136_2_alg».proof.Proof.LibMeanLayer
import Idealize.ShloMosaic.Lib.Pipeline.Value

set_option maxRecDepth 16384

noncomputable section

open scoped BigOperators

namespace Cert.KernelIdeal.Hand

open Cert.KernelIdeal Cert.KernelIdeal.Gen Cert.GinLayer
open Idealize.ShloMosaic Idealize.ShloMosaic.TcCoe Idealize.ShloMosaic.ValueIdx Idealize.SL.Sem
open Idealize.ShloMosaic.Pipeline (Dat)

/-- The tiled layer on one row tile. -/
abbrev blockTile (act : EReal → EReal) (x0 x1 : S10000x128.Idx → EReal) (x2 : S10000x1.Idx → EReal)
    (x3 : S128x128.Idx → EReal) (x4 : S1x128.Idx → EReal) : S10000x128.Idx → EReal :=
  tile (M := 10000) (K := 128) (N := 128) act x0 x1 x2 x3 x4

/-- The tiled layer on the whole arrays. -/
abbrev fullTile (act : EReal → EReal) (a0 a1 : S100000x128.Idx → EReal) (a2 : S100000x1.Idx → EReal)
    (a3 : S128x128.Idx → EReal) (a4 : S1x128.Idx → EReal) : S100000x128.Idx → EReal :=
  tile (M := 100000) (K := 128) (N := 128) act a0 a1 a2 a3 a4

theorem hz : (![0, 0] : Fin 2 → Nat) = fun _ => 0 := funext fun a => by fin_cases a <;> rfl

variable (V : (c : Dev nD) → (b : Ref sig .tc) → Buf (Elt Ideal) ((c : Thread nD τ).loc b))

/-! ## Layer 1: what the tiled call leaves in its result array -/

/-- The printed index maps over the ten grid points: the row tiles of the three tiled operands and of the result move
    with the point, the weight matrix and the bias row stay at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's one store, through the whole staging buffer, leaves the tiled layer of the loaded blocks. -/
theorem out0_eq (x0 x1 : Vec Ideal S10000x128 .f32) (x2 : Vec Ideal S10000x1 .f32) (x3 : Vec Ideal S128x128 .f32)
    (x4 : Vec Ideal S1x128 .f32) : out0_5 x0 x1 x2 x3 x4 = blockTile pos x0 x1 x2 x3 x4 := by
  unfold out0_5
  rw [View.canon_unit_zero hz]
  simp only [View.ld_unit_zero (S := S10000x128) hz, View.ld_unit_zero (S := S10000x1) hz,
    View.ld_unit_zero (S := S128x128) hz, View.ld_unit_zero (S := S1x128) hz]
  unfold k0_pay1
  simp only [shapeCast_self]
  exact body_pos_eq dot_S10000x128_S128x128_S10000x128_1_0_0_1_n_n rfl rfl rfl rfl rfl rfl (some .fp32) x0 x1 x2 x3 x4 _ _

/-- Row tile t of a full-height operand: entry (p, k) of the block is entry (10000·t + p, k) of the array. -/
theorem blk0_0 (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → EReal) i := by
  obtain ⟨e0, e1, -⟩ := idx0 t
  unfold iblk0
  rw [View.read_apply]
  show (V c main_arg0 : S100000x128.Idx → EReal) _ = (V c main_arg0 : S100000x128.Idx → EReal) _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

theorem blk0_1 (c : Dev nD) (t : Fin cfg0.N) (y : S10000x128.Idx) (i : S100000x128.Idx)
    (h0 : (i 0).val = t.val * 10000 + (y 0).val) (h1 : (i 1).val = (y 1).val) :
    (iblk0 V c 1 t : Vec Ideal S10000x128 .f32) y = (V c main_v19 : S100000x128.Idx → EReal) i := by
  obtain ⟨-, -, e0, e1, -⟩ := idx0 t
  unfold iblk0
  rw [View.read_apply]
  show (V c main_v19 : S100000x128.Idx → EReal) _ = (V c main_v19 : S100000x128.Idx → EReal) _
  congr 1
  funext a
  apply Fin.ext
  match a with
  | ⟨0, _⟩ => show win0_1.index t (0 : Fin 2) * 10000 + 1 * (y 0).val = (i 0).val; rw [e0, h0]; omega
  | ⟨1, _⟩ => show win0_1.index t (1 : Fin 2) * 128 + 1 * (y 1).val = (i 1).val; rw [e1, h1]; omega

/-- Row tile t of the reciprocal column. -/
theorem blk0_2 (c : Dev nD) (t : Fin cfg0.N) (y : S10000x1.Idx) (i : S100000x1.Idx)
    (h0 : (i 0).val = t.val * 10000 + (y 0).val) (h1 : (i 1).val = (y 1).val) :
    (iblk0 V c 2 t : Vec Ideal S10000x1 .f32) y = (V c main_v9 : S100000x1.Idx → EReal) i := by
  obtain ⟨-, -, -, -, e0, e1, -⟩ := idx0 t
  unfold iblk0
  rw [View.read_apply]
  show (V c main_v9 : S100000x1.Idx → EReal) _ = (V c main_v9 : S100000x1.Idx → EReal) _
  congr 1
  funext a
  apply Fin.ext
  match a with
  | ⟨0, _⟩ => show win0_2.index t (0 : Fin 2) * 10000 + 1 * (y 0).val = (i 0).val; rw [e0, h0]; omega
  | ⟨1, _⟩ => show win0_2.index t (1 : Fin 2) * 1 + 1 * (y 1).val = (i 1).val; rw [e1, h1]; omega

/-- The weight matrix is one block: the block IS the array. -/
theorem blk0_3 (c : Dev nD) (t : Fin cfg0.N) (y : S128x128.Idx) :
    (iblk0 V c 3 t : Vec Ideal S128x128 .f32) y = (V c main_v20 : S128x128.Idx → EReal) y := by
  obtain ⟨-, -, -, -, -, -, e0, e1, -⟩ := idx0 t
  unfold iblk0
  rw [View.read_apply]
  show (V c main_v20 : S128x128.Idx → EReal) _ = (V c main_v20 : S128x128.Idx → EReal) _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- So is the bias row. -/
theorem blk0_4 (c : Dev nD) (t : Fin cfg0.N) (y : S1x128.Idx) :
    (iblk0 V c 4 t : Vec Ideal S1x128 .f32) y = (V c main_v21 : S1x128.Idx → EReal) y := by
  obtain ⟨-, -, -, -, -, -, -, -, e0, e1, -⟩ := idx0 t
  unfold iblk0
  rw [View.read_apply]
  show (V c main_v21 : S1x128.Idx → EReal) _ = (V c main_v21 : S1x128.Idx → EReal) _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What point t writes back is row tile t of the tiled layer of the whole arrays as the call finds them: an entry
    of a row tile depends only on that row of x, s and ι, on all of w and on the bias row. -/
theorem flushed0 (c : Dev nD) (t : Fin cfg0.N) :
    (dat0 V c).flushed 5 t = ((cfg0.win 5).blk t).view.read (Elt Ideal)
      (fullTile pos (V c main_arg0) (V c main_v19) (V c main_v9) (V c main_v20) (V c main_v21)) := by
  show (cfg0.win 5).cut (grid0.coords t) ((dat0 V c).after 5 t) = _
  rw [after0_5, out0_eq]
  obtain ⟨-, -, -, -, -, -, -, -, -, -, e0, e1⟩ := idx0 t
  funext j
  have he0 : ((((cfg0.win 5).blk t).view.emb j) 0).val = t.val * 10000 + (j 0).val := by
    show win0_5.index t (0 : Fin 2) * 10000 + 1 * (j 0).val = _; rw [e0]; omega
  have he1 : ((((cfg0.win 5).blk t).view.emb j) 1).val = (j 1).val := by
    show win0_5.index t (1 : Fin 2) * 128 + 1 * (j 1).val = _; rw [e1]; omega
  show blockTile pos (iblk0 V c 0 t) (iblk0 V c 1 t) (iblk0 V c 2 t) (iblk0 V c 3 t) (iblk0 V c 4 t) j
    = fullTile pos (V c main_arg0) (V c main_v19) (V c main_v9) (V c main_v20) (V c main_v21) (((cfg0.win 5).blk t).view.emb j)
  unfold blockTile fullTile tile
  refine congrArg pos (congrArg₂ (· + ·) (Finset.sum_congr rfl fun k _ => ?_) ?_)
  · rw [blk0_0 V c t (ix2 (j 0) k) (ix2 ((((cfg0.win 5).blk t).view.emb j) 0) k) he0 rfl,
      blk0_1 V c t (ix2 (j 0) k) (ix2 ((((cfg0.win 5).blk t).view.emb j) 0) k) he0 rfl,
      blk0_2 V c t (ix2 (j 0) (0 : Fin 1)) (ix2 ((((cfg0.win 5).blk t).view.emb j) 0) (0 : Fin 1)) he0 rfl,
      blk0_3 V c t (ix2 k (j 1))]
    exact congrArg _ (congrArg (V c main_v20 : S128x128.Idx → EReal) (congrArg (ix2 k) (Fin.ext he1.symm)))
  · rw [blk0_4 V c t (ix2 (0 : Fin 1) (j 1))]
    exact congrArg (V c main_v21 : S1x128.Idx → EReal) (congrArg (ix2 (0 : Fin 1)) (Fin.ext he1.symm))

/-- An index of the result array is in point t's block when its row lies in the t-th run of 10000 rows. -/
theorem mem_blk0 (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v22).slice (win0_5.rect t)).set ↔ _
  rw [View.set_slice_whole, Rect.mem_set_unit]
  exact Iff.rfl

/-- The ten row tiles fill the array, so after the call the result array IS the tiled layer of the operands. -/
theorem arr0 (c : Dev nD) : (dat0 V c).arrAt 5 cfg0.N
    = fullTile pos (V c main_arg0) (V c main_v19) (V c main_v9) (V c main_v20) (V c main_v21) :=
  (dat0 V c).arrAt_eq_of_cover 5 _ (fun t _ => flushed0 V c t) fun i => by
    have hi0 : (i 0).val < 100000 := (i 0).isLt
    have hi1 : (i 1).val < 128 := (i 1).isLt
    have hN : (i 0).val / 10000 < cfg0.N := by show _ < grid0.N; rw [N_0]; omega
    refine ⟨⟨(i 0).val / 10000, hN⟩, flush0_5 _, ?_⟩
    obtain ⟨-, -, -, -, -, -, -, -, -, -, e0, e1⟩ := idx0 ⟨(i 0).val / 10000, hN⟩
    rw [mem_blk0]
    intro a
    match a with
    | ⟨0, _⟩ =>
      show win0_5.index ⟨(i 0).val / 10000, hN⟩ (0 : Fin 2) * 10000 ≤ (i 0).val
        ∧ (i 0).val < win0_5.index ⟨(i 0).val / 10000, hN⟩ (0 : Fin 2) * 10000 + 10000
      rw [e0]
      show (i 0).val / 10000 * 10000 ≤ (i 0).val ∧ (i 0).val < (i 0).val / 10000 * 10000 + 10000
      omega
    | ⟨1, _⟩ =>
      show win0_5.index ⟨(i 0).val / 10000, hN⟩ (1 : Fin 2) * 128 ≤ (i 1).val
        ∧ (i 1).val < win0_5.index ⟨(i 0).val / 10000, hN⟩ (1 : Fin 2) * 128 + 128
      rw [e1]
      omega

/-! ## Layer 2: what the tiled call leaves in its result array -/

/-- The printed index maps over the ten grid points: the row tiles of the three tiled operands and of the result move
    with the point, the weight matrix and the bias row stay at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's one store, through the whole staging buffer, leaves the tiled layer of the loaded blocks. -/
theorem out1_eq (x0 x1 : Vec Ideal S10000x128 .f32) (x2 : Vec Ideal S10000x1 .f32) (x3 : Vec Ideal S128x128 .f32)
    (x4 : Vec Ideal S1x128 .f32) : out1_5 x0 x1 x2 x3 x4 = blockTile id x0 x1 x2 x3 x4 := by
  unfold out1_5
  rw [View.canon_unit_zero hz]
  simp only [View.ld_unit_zero (S := S10000x128) hz, View.ld_unit_zero (S := S10000x1) hz,
    View.ld_unit_zero (S := S128x128) hz, View.ld_unit_zero (S := S1x128) hz]
  unfold k1_pay1
  simp only [shapeCast_self]
  exact body_eq dot_S10000x128_S128x128_S10000x128_1_0_0_1_n_n rfl rfl rfl rfl rfl rfl (some .fp32) x0 x1 x2 x3 x4 _ _

/-- Row tile t of a full-height operand: entry (p, k) of the block is entry (10000·t + p, k) of the array. -/
theorem blk1_0 (c : Dev nD) (t : Fin cfg1.N) (y : S10000x128.Idx) (i : S100000x128.Idx)
    (h0 : (i 0).val = t.val * 10000 + (y 0).val) (h1 : (i 1).val = (y 1).val) :
    (iblk1 V c 0 t : Vec Ideal S10000x128 .f32) y = (V c main_v22 : S100000x128.Idx → EReal) i := by
  obtain ⟨e0, e1, -⟩ := idx1 t
  unfold iblk1
  rw [View.read_apply]
  show (V c main_v22 : S100000x128.Idx → EReal) _ = (V c main_v22 : S100000x128.Idx → EReal) _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

theorem blk1_1 (c : Dev nD) (t : Fin cfg1.N) (y : S10000x128.Idx) (i : S100000x128.Idx)
    (h0 : (i 0).val = t.val * 10000 + (y 0).val) (h1 : (i 1).val = (y 1).val) :
    (iblk1 V c 1 t : Vec Ideal S10000x128 .f32) y = (V c main_v32 : S100000x128.Idx → EReal) i := by
  obtain ⟨-, -, e0, e1, -⟩ := idx1 t
  unfold iblk1
  rw [View.read_apply]
  show (V c main_v32 : S100000x128.Idx → EReal) _ = (V c main_v32 : S100000x128.Idx → EReal) _
  congr 1
  funext a
  apply Fin.ext
  match a with
  | ⟨0, _⟩ => show win1_1.index t (0 : Fin 2) * 10000 + 1 * (y 0).val = (i 0).val; rw [e0, h0]; omega
  | ⟨1, _⟩ => show win1_1.index t (1 : Fin 2) * 128 + 1 * (y 1).val = (i 1).val; rw [e1, h1]; omega

/-- Row tile t of the reciprocal column. -/
theorem blk1_2 (c : Dev nD) (t : Fin cfg1.N) (y : S10000x1.Idx) (i : S100000x1.Idx)
    (h0 : (i 0).val = t.val * 10000 + (y 0).val) (h1 : (i 1).val = (y 1).val) :
    (iblk1 V c 2 t : Vec Ideal S10000x1 .f32) y = (V c main_v9 : S100000x1.Idx → EReal) i := by
  obtain ⟨-, -, -, -, e0, e1, -⟩ := idx1 t
  unfold iblk1
  rw [View.read_apply]
  show (V c main_v9 : S100000x1.Idx → EReal) _ = (V c main_v9 : S100000x1.Idx → EReal) _
  congr 1
  funext a
  apply Fin.ext
  match a with
  | ⟨0, _⟩ => show win1_2.index t (0 : Fin 2) * 10000 + 1 * (y 0).val = (i 0).val; rw [e0, h0]; omega
  | ⟨1, _⟩ => show win1_2.index t (1 : Fin 2) * 1 + 1 * (y 1).val = (i 1).val; rw [e1, h1]; omega

/-- The weight matrix is one block: the block IS the array. -/
theorem blk1_3 (c : Dev nD) (t : Fin cfg1.N) (y : S128x128.Idx) :
    (iblk1 V c 3 t : Vec Ideal S128x128 .f32) y = (V c main_v33 : S128x128.Idx → EReal) y := by
  obtain ⟨-, -, -, -, -, -, e0, e1, -⟩ := idx1 t
  unfold iblk1
  rw [View.read_apply]
  show (V c main_v33 : S128x128.Idx → EReal) _ = (V c main_v33 : S128x128.Idx → EReal) _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- So is the bias row. -/
theorem blk1_4 (c : Dev nD) (t : Fin cfg1.N) (y : S1x128.Idx) :
    (iblk1 V c 4 t : Vec Ideal S1x128 .f32) y = (V c main_v34 : S1x128.Idx → EReal) y := by
  obtain ⟨-, -, -, -, -, -, -, -, e0, e1, -⟩ := idx1 t
  unfold iblk1
  rw [View.read_apply]
  show (V c main_v34 : S1x128.Idx → EReal) _ = (V c main_v34 : S1x128.Idx → EReal) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point t writes back is row tile t of the tiled layer of the whole arrays as the call finds them: an entry
    of a row tile depends only on that row of x, s and ι, on all of w and on the bias row. -/
theorem flushed1 (c : Dev nD) (t : Fin cfg1.N) :
    (dat1 V c).flushed 5 t = ((cfg1.win 5).blk t).view.read (Elt Ideal)
      (fullTile id (V c main_v22) (V c main_v32) (V c main_v9) (V c main_v33) (V c main_v34)) := by
  show (cfg1.win 5).cut (grid1.coords t) ((dat1 V c).after 5 t) = _
  rw [after1_5, out1_eq]
  obtain ⟨-, -, -, -, -, -, -, -, -, -, e0, e1⟩ := idx1 t
  funext j
  have he0 : ((((cfg1.win 5).blk t).view.emb j) 0).val = t.val * 10000 + (j 0).val := by
    show win1_5.index t (0 : Fin 2) * 10000 + 1 * (j 0).val = _; rw [e0]; omega
  have he1 : ((((cfg1.win 5).blk t).view.emb j) 1).val = (j 1).val := by
    show win1_5.index t (1 : Fin 2) * 128 + 1 * (j 1).val = _; rw [e1]; omega
  show blockTile id (iblk1 V c 0 t) (iblk1 V c 1 t) (iblk1 V c 2 t) (iblk1 V c 3 t) (iblk1 V c 4 t) j
    = fullTile id (V c main_v22) (V c main_v32) (V c main_v9) (V c main_v33) (V c main_v34) (((cfg1.win 5).blk t).view.emb j)
  unfold blockTile fullTile tile
  refine congrArg id (congrArg₂ (· + ·) (Finset.sum_congr rfl fun k _ => ?_) ?_)
  · rw [blk1_0 V c t (ix2 (j 0) k) (ix2 ((((cfg1.win 5).blk t).view.emb j) 0) k) he0 rfl,
      blk1_1 V c t (ix2 (j 0) k) (ix2 ((((cfg1.win 5).blk t).view.emb j) 0) k) he0 rfl,
      blk1_2 V c t (ix2 (j 0) (0 : Fin 1)) (ix2 ((((cfg1.win 5).blk t).view.emb j) 0) (0 : Fin 1)) he0 rfl,
      blk1_3 V c t (ix2 k (j 1))]
    exact congrArg _ (congrArg (V c main_v33 : S128x128.Idx → EReal) (congrArg (ix2 k) (Fin.ext he1.symm)))
  · rw [blk1_4 V c t (ix2 (0 : Fin 1) (j 1))]
    exact congrArg (V c main_v34 : S1x128.Idx → EReal) (congrArg (ix2 (0 : Fin 1)) (Fin.ext he1.symm))

/-- An index of the result array is in point t's block when its row lies in the t-th run of 10000 rows. -/
theorem mem_blk1 (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v35).slice (win1_5.rect t)).set ↔ _
  rw [View.set_slice_whole, Rect.mem_set_unit]
  exact Iff.rfl

/-- The ten row tiles fill the array, so after the call the result array IS the tiled layer of the operands. -/
theorem arr1 (c : Dev nD) : (dat1 V c).arrAt 5 cfg1.N
    = fullTile id (V c main_v22) (V c main_v32) (V c main_v9) (V c main_v33) (V c main_v34) :=
  (dat1 V c).arrAt_eq_of_cover 5 _ (fun t _ => flushed1 V c t) fun i => by
    have hi0 : (i 0).val < 100000 := (i 0).isLt
    have hi1 : (i 1).val < 128 := (i 1).isLt
    have hN : (i 0).val / 10000 < cfg1.N := by show _ < grid1.N; rw [N_1]; omega
    refine ⟨⟨(i 0).val / 10000, hN⟩, flush1_5 _, ?_⟩
    obtain ⟨-, -, -, -, -, -, -, -, -, -, e0, e1⟩ := idx1 ⟨(i 0).val / 10000, hN⟩
    rw [mem_blk1]
    intro a
    match a with
    | ⟨0, _⟩ =>
      show win1_5.index ⟨(i 0).val / 10000, hN⟩ (0 : Fin 2) * 10000 ≤ (i 0).val
        ∧ (i 0).val < win1_5.index ⟨(i 0).val / 10000, hN⟩ (0 : Fin 2) * 10000 + 10000
      rw [e0]
      show (i 0).val / 10000 * 10000 ≤ (i 0).val ∧ (i 0).val < (i 0).val / 10000 * 10000 + 10000
      omega
    | ⟨1, _⟩ =>
      show win1_5.index ⟨(i 0).val / 10000, hN⟩ (1 : Fin 2) * 128 ≤ (i 1).val
        ∧ (i 1).val < win1_5.index ⟨(i 0).val / 10000, hN⟩ (1 : Fin 2) * 128 + 128
      rw [e1]
      omega

end Cert.KernelIdeal.Hand

end
-- ==== Proof.KernelHost.lean ====
/-
  The host operations around the two tiled calls, as functions of the buffers they read.

  Before each call the host program forms the call's operands: the messages summed onto their destination nodes (the
  rows of x gathered at the source indices — a negative index counted from the end — and scatter-added at the
  destination indices), the column of reciprocal degrees (the number of edges arriving at each node, counted in 32-bit
  integers, converted, at least one, inverted and given a unit axis), the weight matrix transposed and the bias given
  a leading unit axis.  Each stretch of host operations, run from ANY contents of the buffers, leaves in each operand
  buffer the corresponding function of the buffers it read, and leaves alone what it does not write.
-/
import proofs.«132182_j75127567942136_2_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo

/-- The messages summed onto their destinations: row e of the gathered array is row src(e) of x (src(e) + 100000 when
    src(e) is negative, clamped into range by the gather), and row n of the result is the sum of the gathered rows e
    with dst(e) = n. -/
def segSum (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The vector of ones. -/
def ones : FVec Ideal S100000 .f32 :=
  broadcastInDim S100000 ![] bcast_S_S100000 (constant (F := Ideal) S_ .f32 0x3F800000#32)

/-- The number of edges arriving at every node, counted in 32-bit integers: one added at dst(e) for every edge e. -/
def countI (dst : IVec S1600000 32) : IVec S100000 32 :=
  Host.scatter scatter_S100000_S1600000x1_S1600000_n_0_0_1 IntOp.addi
    (broadcastInDim S100000 ![] bcast_S_S100000 (constantI S_ 32 0#32))
    (broadcastInDim S1600000x1 ![0] bcast_S1600000_S1600000x1_0 dst)
    (broadcastInDim S1600000 ![] bcast_S_S1600000 (constantI S_ 32 1#32))

/-- The in-degree of every node converted to a float, or one where no edge arrives. -/
def degree (dst : IVec S1600000 32) : FVec Ideal S100000 .f32 :=
  maximumf (sitofp .f32 (countI dst))
    (broadcastInDim S100000 ![] bcast_S_S100000 (constant (F := Ideal) S_ .f32 0x3F800000#32))

/-- The column of reciprocal degrees. -/
def recipCol (dst : IVec S1600000 32) : FVec Ideal S100000x1 .f32 :=
  shapeCast S100000x1 (Host.divf ones (degree dst)) shapeCasts_S100000_S100000x1

/-- The weight matrix transposed. -/
def weightT (w : FVec Ideal S128x128 .f32) : FVec Ideal S128x128 .f32 :=
  transpose S128x128 [1, 0] w transposes_S128x128_S128x128_1_0

/-- The bias as a one-row matrix. -/
def biasRow (b : FVec Ideal S128 .f32) : FVec Ideal S1x128 .f32 :=
  shapeCast S1x128 b shapeCasts_S128_S1x128

variable (U : Valuation τ sig (Elt Ideal))

/-! ## The operations before the first call -/

theorem pre0_x : StableHlo.after (hostOps0 (F := Ideal)) U (Proc.devRef .tc main_arg0) = U (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
theorem pre0_s : StableHlo.after (hostOps0 (F := Ideal)) U (Proc.devRef .tc main_v19)
    = segSum (U (Proc.devRef .tc main_arg0)) (U (Proc.devRef .tc main_arg1)) (U (Proc.devRef .tc main_arg2)) := by
  after_results <;> rfl

set_option maxHeartbeats 4000000 in
theorem pre0_r : StableHlo.after (hostOps0 (F := Ideal)) U (Proc.devRef .tc main_v9)
    = recipCol (U (Proc.devRef .tc main_arg2)) := by
  after_results <;> rfl

set_option maxHeartbeats 4000000 in
theorem pre0_w : StableHlo.after (hostOps0 (F := Ideal)) U (Proc.devRef .tc main_v20)
    = weightT (U (Proc.devRef .tc main_arg3)) := by
  after_results <;> rfl

set_option maxHeartbeats 4000000 in
theorem pre0_b : StableHlo.after (hostOps0 (F := Ideal)) U (Proc.devRef .tc main_v21)
    = biasRow (U (Proc.devRef .tc main_arg4)) := by
  after_results <;> rfl

theorem pre0_src : StableHlo.after (hostOps0 (F := Ideal)) U (Proc.devRef .tc main_arg1) = U (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem pre0_dst : StableHlo.after (hostOps0 (F := Ideal)) U (Proc.devRef .tc main_arg2) = U (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem pre0_w2 : StableHlo.after (hostOps0 (F := Ideal)) U (Proc.devRef .tc main_arg5) = U (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem pre0_b2 : StableHlo.after (hostOps0 (F := Ideal)) U (Proc.devRef .tc main_arg6) = U (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The operations between the two calls -/

theorem pre1_x : StableHlo.after (hostOps1 (F := Ideal)) U (Proc.devRef .tc main_v22) = U (Proc.devRef .tc main_v22) :=
  StableHlo.after_of_forall_not_mem (b := Proc.devRef .tc main_v22) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
theorem pre1_s : StableHlo.after (hostOps1 (F := Ideal)) U (Proc.devRef .tc main_v32)
    = segSum (U (Proc.devRef .tc main_v22)) (U (Proc.devRef .tc main_arg1)) (U (Proc.devRef .tc main_arg2)) := by
  after_results <;> rfl

set_option maxHeartbeats 4000000 in
theorem pre1_r : StableHlo.after (hostOps1 (F := Ideal)) U (Proc.devRef .tc main_v9) = U (Proc.devRef .tc main_v9) :=
  StableHlo.after_of_forall_not_mem (b := Proc.devRef .tc main_v9) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
theorem pre1_w : StableHlo.after (hostOps1 (F := Ideal)) U (Proc.devRef .tc main_v33)
    = weightT (U (Proc.devRef .tc main_arg5)) := by
  after_results <;> rfl

set_option maxHeartbeats 4000000 in
theorem pre1_b : StableHlo.after (hostOps1 (F := Ideal)) U (Proc.devRef .tc main_v34)
    = biasRow (U (Proc.devRef .tc main_arg6)) := by
  after_results <;> rfl

end Cert.KernelIdeal.Hand

end
-- ==== Proof.KernelValue.lean ====
/-
  What the idealized kernel program's result buffer holds when it returns: two layers of the arguments.

  Walking the boundary contents back from the return: the result buffer is what the second tiled call wrote, the tiled
  layer of that call's operands; those operands are, through the host operations between the calls, the first call's
  result, the messages summed over it, the reciprocal-degree column, the second weight matrix transposed and the second
  bias as a row; and the first call's result is the tiled layer of ITS operands, which the host operations before it
  made from the arguments.  With the column the reciprocal of a degree that is a whole number or one, each tiled layer is
  the layer of `LibMeanLayer.lean`.
-/
import proofs.«132182_j75127567942136_2_alg».proof.Proof.KernelBlocks
import proofs.«132182_j75127567942136_2_alg».proof.Proof.KernelHost

set_option maxRecDepth 16384

noncomputable section

namespace Cert.KernelIdeal.Hand

open Cert.KernelIdeal Cert.KernelIdeal.Gen Cert.GinLayer
open Idealize.ShloMosaic Idealize.ShloMosaic.TcCoe Idealize.SL.Sem
open Idealize.ShloMosaic.Pipeline (Dat)

/-- The layer on the whole arrays. -/
abbrev fullLayer (act : EReal → EReal) (x s : FVec Ideal S100000x128 .f32) (δ : FVec Ideal S100000 .f32)
    (w : FVec Ideal S128x128 .f32) (b : FVec Ideal S128 .f32) : FVec Ideal S100000x128 .f32 :=
  layer (M := 100000) (K := 128) (N := 128) act x s δ w b

/-- With the host-made reciprocal column and bias row, the tiled layer is the layer: the degree is the larger of a
    whole number and one, a nonzero real. -/
theorem fullTile_eq_layer (act : EReal → EReal) (x s : FVec Ideal S100000x128 .f32) (dst : IVec S1600000 32)
    (w : FVec Ideal S128x128 .f32) (b : FVec Ideal S128 .f32) :
    fullTile act x s (recipCol dst) w (biasRow b) = fullLayer act x s (degree dst) w b :=
  tile_eq_layer (M := 100000) (K := 128) (N := 128) act x s ones (degree dst) w b
    (fun r => Cert.LibRowScalar.one_word)
    (fun r => ⟨((countI dst r).toInt : ℝ), by
      show max (((countI dst r).toInt : ℝ) : EReal) (Ideal.ofBits .f32 0x3F800000#32) = _
      rw [Cert.LibRowScalar.one_word]⟩)
    shapeCasts_S100000_S100000x1 shapeCasts_S128_S1x128

/-- Two layers: the first with the positive part, the second without. -/
def value (a0 : FVec Ideal S100000x128 .f32) (a1 a2 : IVec S1600000 32) (a3 : FVec Ideal S128x128 .f32)
    (a4 : FVec Ideal S128 .f32) (a5 : FVec Ideal S128x128 .f32) (a6 : FVec Ideal S128 .f32) : FVec Ideal S100000x128 .f32 :=
  fullLayer id (fullLayer pos a0 (segSum a0 a1 a2) (degree a2) (weightT a3) a4)
    (segSum (fullLayer pos a0 (segSum a0 a1 a2) (degree a2) (weightT a3) a4) a1 a2) (degree a2) (weightT a5) a6

variable (m : (ℓ : Loc nD τ sig) → Buf (Elt Ideal) ℓ) (ρ : Dev nD → PrngReg) (c : Dev nD)

/-! ## The first call's operands, made from the arguments -/

theorem v1_x : V1 m ρ c main_arg0 = m ((c : Thread nD τ).loc main_arg0) := pre0_x (W0 m ρ c)
theorem v1_s : V1 m ρ c main_v19 = segSum (m ((c : Thread nD τ).loc main_arg0)) (m ((c : Thread nD τ).loc main_arg1))
    (m ((c : Thread nD τ).loc main_arg2)) := pre0_s (W0 m ρ c)
theorem v1_r : V1 m ρ c main_v9 = recipCol (m ((c : Thread nD τ).loc main_arg2)) := pre0_r (W0 m ρ c)
theorem v1_w : V1 m ρ c main_v20 = weightT (m ((c : Thread nD τ).loc main_arg3)) := pre0_w (W0 m ρ c)
theorem v1_b : V1 m ρ c main_v21 = biasRow (m ((c : Thread nD τ).loc main_arg4)) := pre0_b (W0 m ρ c)

/-- The first layer's output. -/
abbrev hidden : FVec Ideal S100000x128 .f32 :=
  fullLayer pos (m ((c : Thread nD τ).loc main_arg0))
    (segSum (m ((c : Thread nD τ).loc main_arg0)) (m ((c : Thread nD τ).loc main_arg1)) (m ((c : Thread nD τ).loc main_arg2)))
    (degree (m ((c : Thread nD τ).loc main_arg2))) (weightT (m ((c : Thread nD τ).loc main_arg3)))
    (m ((c : Thread nD τ).loc main_arg4))

/-! ## The contents after the first call -/

/-- Its result array holds the first layer's output. -/
theorem w2_x : W2 m ρ c (Proc.devRef .tc main_v22) = hidden m c :=
  (W2_arr m ρ c 5).trans ((arr0 (V1 m ρ) c).trans (by
    rw [v1_x m ρ c, v1_s m ρ c, v1_r m ρ c, v1_w m ρ c, v1_b m ρ c]
    exact fullTile_eq_layer pos _ _ _ _ _))

/-- The reciprocal column, an input of the call, is as the host operations made it. -/
theorem w2_r : W2 m ρ c (Proc.devRef .tc main_v9) = recipCol (m ((c : Thread nD τ).loc main_arg2)) :=
  (W2_arr m ρ c 2).trans (((dat0 (V1 m ρ) c).arrAt_in 2 rfl _).trans ((A_eq0 (V1 m ρ) c 2).trans (v1_r m ρ c)))

/-- The arguments the call does not touch are as launched. -/
theorem w2_src : W2 m ρ c (Proc.devRef .tc main_arg1) = m ((c : Thread nD τ).loc main_arg1) :=
  (W2_of_ne m ρ c main_arg1 (by decide)).trans (pre0_src (W0 m ρ c))
theorem w2_dst : W2 m ρ c (Proc.devRef .tc main_arg2) = m ((c : Thread nD τ).loc main_arg2) :=
  (W2_of_ne m ρ c main_arg2 (by decide)).trans (pre0_dst (W0 m ρ c))
theorem w2_w : W2 m ρ c (Proc.devRef .tc main_arg5) = m ((c : Thread nD τ).loc main_arg5) :=
  (W2_of_ne m ρ c main_arg5 (by decide)).trans (pre0_w2 (W0 m ρ c))
theorem w2_b : W2 m ρ c (Proc.devRef .tc main_arg6) = m ((c : Thread nD τ).loc main_arg6) :=
  (W2_of_ne m ρ c main_arg6 (by decide)).trans (pre0_b2 (W0 m ρ c))

/-! ## The second call's operands -/

theorem v3_x : V3 m ρ c main_v22 = hidden m c := (pre1_x (W2 m ρ c)).trans (w2_x m ρ c)
theorem v3_s : V3 m ρ c main_v32 = segSum (hidden m c) (m ((c : Thread nD τ).loc main_arg1))
    (m ((c : Thread nD τ).loc main_arg2)) :=
  (pre1_s (W2 m ρ c)).trans (by rw [w2_x m ρ c, w2_src m ρ c, w2_dst m ρ c])
theorem v3_r : V3 m ρ c main_v9 = recipCol (m ((c : Thread nD τ).loc main_arg2)) :=
  (pre1_r (W2 m ρ c)).trans (w2_r m ρ c)
theorem v3_w : V3 m ρ c main_v33 = weightT (m ((c : Thread nD τ).loc main_arg5)) :=
  (pre1_w (W2 m ρ c)).trans (by rw [w2_w m ρ c])
theorem v3_b : V3 m ρ c main_v34 = biasRow (m ((c : Thread nD τ).loc main_arg6)) :=
  (pre1_b (W2 m ρ c)).trans (by rw [w2_b m ρ c])

/-! ## The result -/

/-- When the program returns, the result buffer holds the two layers of the arguments. -/
theorem result_eq : W4 m ρ c (Proc.devRef .tc main_v35)
    = value (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) :=
  (W4_arr m ρ c 5).trans ((arr1 (V3 m ρ) c).trans (by
    rw [v3_x m ρ c, v3_s m ρ c, v3_r m ρ c, v3_w m ρ c, v3_b m ρ c]
    exact fullTile_eq_layer id _ _ _ _ _))

end Cert.KernelIdeal.Hand

end
-- ==== Proof.LibScatterCount.lean ====
/-
  Counting by scatter, two ways.

  A StableHLO scatter whose body adds, fed the all-ones updates into the all-zeros operand, counts at every operand
  index `i` the update indices that land on `i`.  Done on 32-bit integers (a left fold over the update indices in row-major
  order, each step adding one at the landing index) the count is exact as long as the number of updates stays below
  `2^31`; done on the extended reals it is the sum of ones over the landing set.  Both are the cardinality of one and
  the same set `{ j | resultIdx? j idx = some i }`, so the integer count converted to a float IS the float count.
-/
import Idealize.ShloMosaic.PureOps.Ideal.Laws
import Idealize.ShloMosaic.Lib.ValueIdx

noncomputable section

open scoped BigOperators

namespace Cert.LibScatterCount

open Idealize.ShloMosaic

/-- A left fold whose step adds one at the places `p j ·` holds and changes nothing else counts, at `i`, the list's
    members `j` with `p j i` (the list without repetitions). -/
theorem foldl_count {ι κ : Type} [DecidableEq κ] (p : κ → ι → Prop) [∀ j i, Decidable (p j i)]
    (g : (ι → BitVec 32) → κ → ι → BitVec 32)
    (hg : ∀ r j i, g r j i = if p j i then r i + 1#32 else r i)
    (L : List κ) (hL : L.Nodup) (x : ι → BitVec 32) (i : ι) :
    L.foldl g x i = x i + BitVec.ofNat 32 ((L.toFinset.filter fun j => p j i).card) := by
  induction L generalizing x with
  | nil => simp
  | cons j L ih =>
    have hj : j ∉ L.toFinset := by rw [List.mem_toFinset]; exact (List.nodup_cons.mp hL).1
    rw [List.foldl_cons, ih (List.nodup_cons.mp hL).2, hg, List.toFinset_cons, Finset.filter_insert]
    by_cases h : p j i
    · rw [if_pos h, if_pos h, Finset.card_insert_of_notMem (fun hm => hj (Finset.mem_filter.mp hm).1),
        BitVec.ofNat_add]
      ac_rfl
    · rw [if_neg h, if_neg h]

variable {s si u : Shape} {w : Nat}

/-- The integer scatter-add of ones into zeros, at `i`: the number of update indices landing on `i`. -/
theorem scatter_addi_ones (d : ScatterDims s si u) (idx : IVec si w) (i : s.Idx) :
    Host.scatter d IntOp.addi (fun _ => (0#32 : BitVec 32)) idx (fun _ => (1#32 : BitVec 32)) i
      = BitVec.ofNat 32 ((Finset.univ.filter fun j : u.Idx => d.resultIdx? j idx = some i).card) := by
  unfold Host.scatter
  have hnd : ((List.finRange u.numel).map u.rowMajor.symm).Nodup :=
    (List.nodup_finRange _).map u.rowMajor.symm.injective
  have hall : ((List.finRange u.numel).map u.rowMajor.symm).toFinset = Finset.univ :=
    Finset.eq_univ_iff_forall.mpr fun j => List.mem_toFinset.mpr
      (List.mem_map.mpr ⟨u.rowMajor j, List.mem_finRange _, u.rowMajor.symm_apply_apply j⟩)
  have := foldl_count (fun (j : u.Idx) (i : s.Idx) => d.resultIdx? j idx = some i)
    (fun r j => match d.resultIdx? j idx with
      | some i0 => fun i' => if i' = i0 then IntOp.addi (r i0) (1#32) else r i'
      | none => r)
    (fun r j i => by
      cases hr : d.resultIdx? j idx with
      | none => simp
      | some i0 =>
        by_cases h : i = i0
        · subst h; simp [IntOp.addi]
        · have h' : ¬ (some i0 = some i) := fun e => h (Option.some.inj e).symm
          simp [h, h'])
    _ hnd (fun _ => 0#32) i
  rw [List.foldl_map, hall] at this
  exact this.trans (BitVec.zero_add _)

/-- The count never exceeds the number of update indices. -/
theorem card_le (d : ScatterDims s si u) (idx : IVec si w) (i : s.Idx) :
    (Finset.univ.filter fun j : u.Idx => d.resultIdx? j idx = some i).card ≤ u.numel := by
  refine (Finset.card_filter_le _ _).trans ?_
  rw [Finset.card_univ, Fintype.card_congr u.rowMajor, Fintype.card_fin]

/-- The pattern of the float one. -/
theorem ofBits_one : Ideal.ofBits .f32 0x3F800000#32 = 1 := by
  simp [Ideal.ofBits, Ideal.ieee, -EReal.coe_mul]; norm_num

/-- THE TWO COUNTS AGREE: the integer scatter-add of ones into zeros, converted to a float, is the float scatter-add of
    ones into zeros, as long as fewer than `2^31` updates are scattered. -/
theorem sitofp_scatter_ones (d : ScatterDims s si u) (idx : IVec si w) (hu : u.numel < 2 ^ 31) :
    sitofp (F := Ideal) .f32 (Host.scatter d IntOp.addi (fun _ => (0#32 : BitVec 32)) idx (fun _ => (1#32 : BitVec 32)))
      = Host.scatterAdd (F := Ideal) d (fun _ => Ideal.ofBits .f32 0x00000000#32) idx
          (fun _ => Ideal.ofBits .f32 0x3F800000#32) := by
  funext i
  have hc := card_le d idx i
  set c := (Finset.univ.filter fun j : u.Idx => d.resultIdx? j idx = some i).card with hcdef
  have h1 : (BitVec.ofNat 32 c).toNat = c := by rw [BitVec.toNat_ofNat]; omega
  have h2 : (BitVec.ofNat 32 c).toInt = (c : Int) := by
    rw [BitVec.toInt_eq_toNat_cond, h1]; split <;> omega
  show ((((Host.scatter d IntOp.addi (fun _ => (0#32 : BitVec 32)) idx (fun _ => (1#32 : BitVec 32))) i).toInt : ℝ) : EReal) = _
  rw [scatter_addi_ones, ← hcdef, h2]
  simp only [Host.scatterAdd, Ideal.hostScatterAdd_def, Ideal.hostScatterAdd, Ideal.ofBits_zero_f32, ofBits_one, zero_add,
    Finset.sum_const, nsmul_eq_mul, mul_one]
  simp [hcdef]

end Cert.LibScatterCount

end
-- ==== Proof.KernelDegree.lean ====
/-
  The in-degree counted in integers and converted is the in-degree counted as a sum of ones.

  Adding one at dst(e) for each of the 1 600 000 edges, in 32-bit integers, counts at node n the edges arriving at n; the
  count is at most 1 600 000, well below 2^31, so reading it signed and converting gives that whole number exactly —
  which is also what summing the float one over the same edges gives on the extended reals.
-/
import proofs.«132182_j75127567942136_2_alg».proof.Proof.KernelHost
import proofs.«132182_j75127567942136_2_alg».proof.Proof.LibScatterCount

set_option maxRecDepth 16384

noncomputable section

namespace Cert.KernelIdeal.Hand

open Cert.KernelIdeal Cert.KernelIdeal.Gen
open Idealize.ShloMosaic

/-- The degree with the count taken as a float sum of ones. -/
theorem degree_float (dst : IVec S1600000 32) :
    degree dst = maximumf (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)) := by
  have hu : S1600000.numel < 2 ^ 31 := by
    rw [Shape.numel_rank1]; show 1600000 < 2 ^ 31; norm_num
  have h := Cert.LibScatterCount.sitofp_scatter_ones (w := 32) scatter_S100000_S1600000x1_S1600000_n_0_0_1
    (broadcastInDim S1600000x1 ![0] bcast_S1600000_S1600000x1_0 dst) hu
  unfold degree countI
  show maximumf (sitofp .f32 (Host.scatter scatter_S100000_S1600000x1_S1600000_n_0_0_1 IntOp.addi
      (fun _ => (0#32 : BitVec 32)) (broadcastInDim S1600000x1 ![0] bcast_S1600000_S1600000x1_0 dst)
      (fun _ => (1#32 : BitVec 32)))) _ = _
  rw [h]
  rfl

end Cert.KernelIdeal.Hand

end
-- ==== Proof.Reference.lean ====
/-
  The reference program's result as two layers.

  The reference computes, twice over, the mean of the neighbours' rows (the summed messages divided by the in-degree, at
  least one, spread along each row), adds it to the features, multiplies by the transposed weight matrix and adds the
  bias; the first time it then takes the positive part.  Entry by entry that is the layer of `LibMeanLayer.lean` with the
  divisor vector the in-degree (counted as a sum of ones on the extended reals), so the result the reference's run ends
  at is the layer applied to the layer.
-/
import proofs.«132182_j75127567942136_2_alg».proof.Proof.Gen.ReferenceIdeal.Run
import proofs.«132182_j75127567942136_2_alg».proof.Proof.LibMeanLayer

set_option maxRecDepth 16384

noncomputable section

namespace Cert.ReferenceIdeal.Hand

open Cert.ReferenceIdeal Cert.ReferenceIdeal.Gen Cert.ReferenceIdeal.Value Cert.GinLayer
open Idealize.ShloMosaic Idealize.ShloMosaic.TcCoe Idealize.SL.Sem

/-- The messages summed onto their destinations (rows of x gathered at the source indices, a negative index counted
    from the end, scatter-added at the destination indices). -/
def segSum (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The in-degree of every node as a sum of ones, or one where no edge arrives. -/
def degree (dst : IVec S1600000 32) : FVec Ideal S100000 .f32 :=
  maximumf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The weight matrix transposed. -/
def weightT (w : FVec Ideal S128x128 .f32) : FVec Ideal S128x128 .f32 :=
  transpose S128x128 [1, 0] w transposes_S128x128_S128x128_1_0

/-- The layer on the whole arrays. -/
abbrev fullLayer (act : EReal → EReal) (x s : FVec Ideal S100000x128 .f32) (δ : FVec Ideal S100000 .f32)
    (w : FVec Ideal S128x128 .f32) (b : FVec Ideal S128 .f32) : FVec Ideal S100000x128 .f32 :=
  layer (M := 100000) (K := 128) (N := 128) act x s δ w b

/-- Two layers: the first with the positive part, the second without. -/
def value (a0 : FVec Ideal S100000x128 .f32) (a1 a2 : IVec S1600000 32) (a3 : FVec Ideal S128x128 .f32)
    (a4 : FVec Ideal S128 .f32) (a5 : FVec Ideal S128x128 .f32) (a6 : FVec Ideal S128 .f32) : FVec Ideal S100000x128 .f32 :=
  fullLayer id (fullLayer pos a0 (segSum a0 a1 a2) (degree a2) (weightT a3) a4)
    (segSum (fullLayer pos a0 (segSum a0 a1 a2) (degree a2) (weightT a3) a4) a1 a2) (degree a2) (weightT a5) a6

/-- The term the reference's run ends at is the two layers of the arguments. -/
theorem result_eq (m : (ℓ : Loc nD τ sig) → Buf (Elt Ideal) ℓ) (c : Dev nD) :
    res_main_v50 (F := Ideal) m c
      = value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold res_main_v50
  rw [host_eq_layer (M := 100000) (K := 128) (N := 128) dot_S100000x128_S128x128_S100000x128_1_0_0_1_n_n
    rfl rfl rfl rfl rfl rfl none]
  rw [host_eq_layer (M := 100000) (K := 128) (N := 128) dot_S100000x128_S128x128_S100000x128_1_0_0_1_n_n
    rfl rfl rfl rfl rfl rfl none, host_pos]
  rfl

end Cert.ReferenceIdeal.Hand

end
-- ==== Proof.Bridge.lean ====
/-
  The two programs' results are one function of the arguments.

  Both are two layers.  The messages are summed by the same gather and scatter-add on both sides, the weight matrices
  are transposed the same way, and the one place the programs differ before the layers meet — the in-degree counted in
  32-bit integers and converted against the in-degree counted as a sum of float ones — is the same whole number
  (`degree_float`).  Inside the layer the kernel's product with the reciprocal degree is the reference's quotient by
  the degree (`tile_eq_layer`), which is where each side was already brought to the common form.
-/
import proofs.«132182_j75127567942136_2_alg».proof.Proof.KernelValue
import proofs.«132182_j75127567942136_2_alg».proof.Proof.KernelDegree
import proofs.«132182_j75127567942136_2_alg».proof.Proof.Reference

set_option maxRecDepth 16384

noncomputable section

namespace Cert.Bridge

open Idealize.ShloMosaic

/-- The summed messages are the same host operations on both sides. -/
theorem segSum_eq (x : FVec Ideal Cert.KernelIdeal.S100000x128 .f32) (src dst : IVec Cert.KernelIdeal.S1600000 32) :
    Cert.ReferenceIdeal.Hand.segSum x src dst = Cert.KernelIdeal.Hand.segSum x src dst := rfl

/-- So is the transposed weight matrix. -/
theorem weightT_eq (w : FVec Ideal Cert.KernelIdeal.S128x128 .f32) :
    Cert.ReferenceIdeal.Hand.weightT w = Cert.KernelIdeal.Hand.weightT w := rfl

/-- The two degree vectors are equal. -/
theorem degree_eq (dst : IVec Cert.KernelIdeal.S1600000 32) :
    Cert.ReferenceIdeal.Hand.degree dst = Cert.KernelIdeal.Hand.degree dst := by
  rw [Cert.KernelIdeal.Hand.degree_float]
  rfl

/-- The reference's two layers are the kernel's. -/
theorem value_eq (a0 : FVec Ideal Cert.KernelIdeal.S100000x128 .f32) (a1 a2 : IVec Cert.KernelIdeal.S1600000 32)
    (a3 : FVec Ideal Cert.KernelIdeal.S128x128 .f32) (a4 : FVec Ideal Cert.KernelIdeal.S128 .f32)
    (a5 : FVec Ideal Cert.KernelIdeal.S128x128 .f32) (a6 : FVec Ideal Cert.KernelIdeal.S128 .f32) :
    Cert.ReferenceIdeal.Hand.value a0 a1 a2 a3 a4 a5 a6 = Cert.KernelIdeal.Hand.value a0 a1 a2 a3 a4 a5 a6 := by
  unfold Cert.ReferenceIdeal.Hand.value Cert.KernelIdeal.Hand.value
  rw [degree_eq a2]
  simp only [segSum_eq, weightT_eq]

end Cert.Bridge

end
-- ==== Proof.lean ====
/-
  The certificate of a two-layer graph network with mean aggregation: the tiled program against its plain reference.

  Each layer sends features x to act((x + mean of the neighbours' rows) · Wᵀ + b).  The tiled program sums the
  neighbours' rows on the host, counts the in-degrees once in 32-bit integers, and in each tiled call multiplies the sums
  by the reciprocal degree before the matrix product; the reference divides the sums by the degree, counted as a sum of
  float ones, and calls one whole matrix product.  On the extended reals the two are one function of the arguments:
  the integer count is the float count (fewer than 2^31 edges), and a product with the reciprocal of a degree that is at
  least one is the quotient by it, whatever the other factor.  No finiteness of the inputs is used.

  The three frames are the generated ones (the reference's is its run with the result dropped); the idealization rewrote
  no operation, so that conjunct is trivial; the kernel's run with its result named is `KernelRun.lean`, the value it
  ends at `KernelValue.lean`, the reference's `Reference.lean`, and their equality `Bridge.lean`.
-/
import proofs.«132182_j75127567942136_2_alg».proof.Defs
import proofs.«132182_j75127567942136_2_alg».proof.Proof.Gen.Kernel
import proofs.«132182_j75127567942136_2_alg».proof.Proof.Gen.Kernel.Frame
import proofs.«132182_j75127567942136_2_alg».proof.Proof.Gen.KernelIdeal
import proofs.«132182_j75127567942136_2_alg».proof.Proof.Gen.KernelIdeal.Frame
import proofs.«132182_j75127567942136_2_alg».proof.Proof.Gen.ReferenceIdeal
import proofs.«132182_j75127567942136_2_alg».proof.Proof.Gen.ReferenceIdeal.Run
import proofs.«132182_j75127567942136_2_alg».proof.Proof.Gen.Pre_finite_inputs
import proofs.«132182_j75127567942136_2_alg».proof.Proof.KernelRun
import proofs.«132182_j75127567942136_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no tiled call: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with their result at the two layers of the arguments. -/
theorem algebraic : Cert.algebraic_KernelIdeal_ReferenceIdeal := by
  intro m ρ m' ρ' _ hagree
  refine ⟨fun c => Cert.KernelIdeal.Hand.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.result_eq m' c]
    obtain ⟨e0, e1, e2, e3, e4, e5, e6⟩ := hagree c
    rw [e0, e1, e2, e3, e4, e5, e6]
    exact Cert.Bridge.value_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
